-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x2048 : Shape := ⟨3, ![16, 2048, 2048]⟩
abbrev S_ : Shape := ⟨0, ![]⟩

class Facts : Prop where
  bcast_S_S16x2048x2048 : S_.BroadcastsInDim S16x2048x2048 (![] : Fin 0 → Fin S16x2048x2048.rank)
  reducesTo_S16x2048x2048_S_d0_1_2 : S16x2048x2048.ReducesTo [0, 1, 2] S_
  h_S_ : 0 < S_.numel

variable [Facts]

def fn {F : FTy → Type} [FloatOps F] (main_arg0 : FVec F S16x2048x2048 .f32) : IVec S_ 1 :=
  let main_v0 : FVec F S16x2048x2048 .f32 := Host.absf main_arg0
  let main_cst : FVec F S_ .f32 := constant S_ .f32 0x7F800000#32
  let main_v1 : FVec F S16x2048x2048 .f32 := broadcastInDim S16x2048x2048 ![] bcast_S_S16x2048x2048 main_cst
  let main_v2 : IVec S16x2048x2048 1 := cmpf .olt main_v0 main_v1
  let main_c : IVec S_ 1 := constantI S_ 1 1#1
  let main_v3 : IVec S_ 1 := (fun x v => Host.reduce IntOp.andi x v reducesTo_S16x2048x2048_S_d0_1_2 h_S_) main_v2 main_c
  main_v3
-- ==== Kernel.lean ====
abbrev S16x2048x2048 : Shape := ⟨3, ![16, 2048, 2048]⟩
abbrev S16x2048 : Shape := ⟨2, ![16, 2048]⟩
abbrev S16x128x2048 : Shape := ⟨3, ![16, 128, 2048]⟩
abbrev S16x128 : Shape := ⟨2, ![16, 128]⟩
abbrev S16x2048x1 : Shape := ⟨3, ![16, 2048, 1]⟩
abbrev S16x1x2048 : Shape := ⟨3, ![16, 1, 2048]⟩
abbrev S1x1024x2048 : Shape := ⟨3, ![1, 1024, 2048]⟩
abbrev S1x1024x1 : Shape := ⟨3, ![1, 1024, 1]⟩
abbrev S1x1x2048 : Shape := ⟨3, ![1, 1, 2048]⟩
abbrev S1024x2048 : Shape := ⟨2, ![1024, 2048]⟩

abbrev nBuf : Space → Nat
  | .hbm => 5
  | .vmem => 12
  | .smem => 0
  | _ => 0

abbrev bufTy : (tb : Table) → Fin (tcTables nBuf tb) → BufTy
  | .hbm, ⟨0, _⟩ => ⟨S16x2048x2048, .f32⟩
  | .hbm, ⟨1, _⟩ => ⟨S16x2048, .f32⟩
  | .hbm, ⟨2, _⟩ => ⟨S16x2048x1, .f32⟩
  | .hbm, ⟨3, _⟩ => ⟨S16x1x2048, .f32⟩
  | .hbm, ⟨4, _⟩ => ⟨S16x2048x2048, .f32⟩
  | .local _ .vmem, ⟨0, _⟩ => ⟨S16x128x2048, .f32⟩
  | .local _ .vmem, ⟨1, _⟩ => ⟨S16x128x2048, .f32⟩
  | .local _ .vmem, ⟨2, _⟩ => ⟨S16x128, .f32⟩
  | .local _ .vmem, ⟨3, _⟩ => ⟨S16x128, .f32⟩
  | .local _ .vmem, ⟨4, _⟩ => ⟨S1x1024x2048, .f32⟩
  | .local _ .vmem, ⟨5, _⟩ => ⟨S1x1024x2048, .f32⟩
  | .local _ .vmem, ⟨6, _⟩ => ⟨S1x1024x1, .f32⟩
  | .local _ .vmem, ⟨7, _⟩ => ⟨S1x1024x1, .f32⟩
  | .local _ .vmem, ⟨8, _⟩ => ⟨S1x1x2048, .f32⟩
  | .local _ .vmem, ⟨9, _⟩ => ⟨S1x1x2048, .f32⟩
  | .local _ .vmem, ⟨10, _⟩ => ⟨S1x1024x2048, .f32⟩
  | .local _ .vmem, ⟨11, _⟩ => ⟨S1x1024x2048, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![16, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S16x128x2048_S16x128x2048_0_0_0 : ∀ a, (![0, 0, 0] : Fin 3 → Nat) a + S16x128x2048.size a ≤ S16x128x2048.size a
  h_S16x128x2048 : 0 < S16x128x2048.numel
  reduces_S16x128x2048_S16x128 : S16x128x2048.Reduces [2] S16x128
  inb_S16x128_S16x128_0_0 : ∀ a, (![0, 0] : Fin 2 → Nat) a + S16x128.size a ≤ S16x128.size a
  h_S16x128 : 0 < S16x128.numel
  shapeCasts_S16x2048_S16x2048x1 : S16x2048.ShapeCasts S16x2048x1
  shapeCasts_S16x2048_S16x1x2048 : S16x2048.ShapeCasts S16x1x2048
  iota_S1024x2048_d0_w32 : S1024x2048.Iotas .tc 32 [0]
  iota_S1024x2048_d1_w32 : S1024x2048.Iotas .tc 32 [1]
  natLt_1_32 : 1 < 32
  inb_S1x1024x2048_S1x1024x2048_0_0_0 : ∀ a, (![0, 0, 0] : Fin 3 → Nat) a + S1x1024x2048.size a ≤ S1x1024x2048.size a
  h_S1x1024x2048 : 0 < S1x1024x2048.numel
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1x1024x1 : S1x1024x1.ShapeCasts S1x1024x1
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x1x2048 : S1x1x2048.ShapeCasts S1x1x2048
  broadcasts_S1x1024x1_S1x1024x2048 : S1x1024x1.Broadcasts S1x1024x2048
  broadcasts_S1x1x2048_S1x1024x2048 : S1x1x2048.Broadcasts S1x1024x2048
  shapeCasts_S1024x2048_S1x1024x2048 : S1024x2048.ShapeCasts S1x1024x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128x2048.size a ≤ S16x2048x2048.size a
  hwx0_0 : ∀ i : grid0.Coords, EltTy.bits .f32 = 32 ∨ (Rect.block (s := S16x2048x2048) S16x128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x2048.size a
  hwx0_1 : ∀ i : grid0.Coords, EltTy.bits .f32 = 32 ∨ (Rect.block (s := S16x2048) S16x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x2048.size a ≤ S16x2048x2048.size a
  hwx1_0 : ∀ i : grid1.Coords, EltTy.bits .f32 = 32 ∨ (Rect.block (s := S16x2048x2048) S1x1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1.size a ≤ S16x2048x1.size a
  hwx1_1 : ∀ i : grid1.Coords, EltTy.bits .f32 = 32 ∨ (Rect.block (s := S16x2048x1) S1x1024x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x2048.size a ≤ S16x1x2048.size a
  hwx1_2 : ∀ i : grid1.Coords, EltTy.bits .f32 = 32 ∨ (Rect.block (s := S16x1x2048) S1x1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x2048.size a ≤ S16x2048x2048.size a
  hwx1_3 : ∀ i : grid1.Coords, EltTy.bits .f32 = 32 ∨ (Rect.block (s := S16x2048x2048) S1x1024x2048.size (cc1_transform_3 i) (hinb1_3 i)).WholeWords (EltTy.packing .f32)

variable [Facts₀]

abbrev win0_0 : Pipeline.Window sig grid0 :=
  Pipeline.Window.ofSpec (Memref.whole main_arg0) S16x128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1x1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩
abbrev S16x1x2048 : Shape := ⟨3, ![16, 1, 2048]⟩
abbrev S2048x2048 : Shape := ⟨2, ![2048, 2048]⟩
abbrev S1x2048x2048 : Shape := ⟨3, ![1, 2048, 2048]⟩

abbrev nBuf : Space → Nat
  | .hbm => 23
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S_, .f32⟩
  | .hbm, ⟨2, _⟩ => ⟨S16x2048, .f32⟩
  | .hbm, ⟨3, _⟩ => ⟨S16x2048, .f32⟩
  | .hbm, ⟨4, _⟩ => ⟨S_, .f32⟩
  | .hbm, ⟨5, _⟩ => ⟨S16x2048, .f32⟩
  | .hbm, ⟨6, _⟩ => ⟨S16x2048, .f32⟩
  | .hbm, ⟨7, _⟩ => ⟨S16x2048x1, .f32⟩
  | .hbm, ⟨8, _⟩ => ⟨S16x2048x2048, .f32⟩
  | .hbm, ⟨9, _⟩ => ⟨S16x2048x2048, .f32⟩
  | .hbm, ⟨10, _⟩ => ⟨S16x1x2048, .f32⟩
  | .hbm, ⟨11, _⟩ => ⟨S16x2048x2048, .f32⟩
  | .hbm, ⟨12, _⟩ => ⟨S16x2048x2048, .f32⟩
  | .hbm, ⟨13, _⟩ => ⟨S2048x2048, .i32⟩
  | .hbm, ⟨14, _⟩ => ⟨S2048x2048, .i32⟩
  | .hbm, ⟨15, _⟩ => ⟨S_, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S2048x2048, .f32⟩
  | .hbm, ⟨20, _⟩ => ⟨S1x2048x2048, .f32⟩
  | .hbm, ⟨21, _⟩ => ⟨S16x2048x2048, .f32⟩
  | .hbm, ⟨22, _⟩ => ⟨S16x2048x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]

class Facts₀ : Prop where
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  bcast_S16x2048_S16x1x2048_0_2 : S16x2048.BroadcastsInDim S16x1x2048 (![0, 2] : Fin 2 → Fin S16x1x2048.rank)
  bcast_S16x1x2048_S16x2048x2048_0_1_2 : S16x1x2048.BroadcastsInDim S16x2048x2048 (![0, 1, 2] : Fin 3 → Fin S16x2048x2048.rank)
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S16x2048x2048_0_1_2 : S1x2048x2048.BroadcastsInDim S16x2048x2048 (![0, 1, 2] : Fin 3 → Fin S16x2048x2048.rank)

variable [Facts₀]

class Facts : Prop extends Facts₀ where

variable [Facts]
-- ==== Proof.LapSpec.lean ====
/-
  The normalized graph Laplacian of a batch of sixteen 2048 x 2048 matrices, as ONE function of the
  argument array, entry by entry, on the extended reals:

      L[b, r, c] = eye[r, c] - (d[b, r] * A[b, r, c]) * d[b, c],      d[b, r] = 1 / sqrt (sum over k of A[b, r, k]).

  The quotient and the root are the extended reals' (Ideal.div, Ideal.sqrt: a zero or negative row sum
  has its documented value there), the two products are taken in this order, and the float words of
  0 and 1 stay words: both programs spell them with the same patterns, so they are never evaluated.
  Also here: the identity matrix's entry from the two spellings the programs use for it — a one-bit
  comparison of two 32-bit coordinates, widened and read signed, or read unsigned directly.
-/
import Idealize.ShloMosaic.PureOps.Ideal
import Idealize.ShloMosaic.Lib.ValueIdx

noncomputable section

namespace Cert.Lap

open Idealize.ShloMosaic Idealize.ShloMosaic.ValueIdx

/-- The argument's shape, and the shape of the row-degree array. -/
abbrev SA : Shape := ⟨3, ![16, 2048, 2048]⟩
abbrev SD : Shape := ⟨2, ![16, 2048]⟩

/-- The float word of 1, at `Ideal`. -/
abbrev one : EReal := Ideal.ofBits .f32 0x3F800000#32

/-- `d[b, r]`: one over the root of row `r`'s sum in matrix `b`. -/
def dinv (A : SA.Idx → EReal) (b : Fin 16) (r : Fin 2048) : EReal :=
  Ideal.div one (Ideal.sqrt (∑ k : Fin 2048, A (ix3 b r k)))

/-- The identity matrix's entry at row `r`, column `c`. -/
def eye (r c : Nat) : EReal := (((if r = c then 1 else 0 : Nat) : ℝ) : EReal)

/-- The Laplacian, entry by entry. -/
def lap (A : SA.Idx → EReal) : SA.Idx → EReal := fun j =>
  eye (j 1).val (j 2).val - (dinv A (j 0) (j 1) * A j) * dinv A (j 0) (j 2)

/-- Two coordinates below 2^32 are equal as 32-bit words exactly when they are equal. -/
theorem ofNat_beq (r c : Nat) (hr : r < 4294967296) (hc : c < 4294967296) :
    (BitVec.ofNat 32 r == BitVec.ofNat 32 c) = decide (r = c) := by
  by_cases h : r = c
  · subst h; simp
  · have : BitVec.ofNat 32 r ≠ BitVec.ofNat 32 c := fun e => h (by
      have := congrArg BitVec.toNat e
      simpa [BitVec.toNat_ofNat, Nat.mod_eq_of_lt hr, Nat.mod_eq_of_lt hc] using this)
    simp [h, this]

/-- The comparison bit read unsigned is the identity's entry. -/
theorem eye_unsigned (r c : Nat) (hr : r < 4294967296) (hc : c < 4294967296) :
    (((IntOp.cmpi .eq (BitVec.ofNat 32 r) (BitVec.ofNat 32 c)).toNat : ℝ) : EReal) = eye r c := by
  unfold eye
  show (((BitVec.ofBool (BitVec.ofNat 32 r == BitVec.ofNat 32 c)).toNat : ℝ) : EReal) = _
  rw [ofNat_beq r c hr hc]
  by_cases h : r = c <;> simp [h]

/-- A one-bit word widened to 32 bits and read signed is the word read unsigned. -/
theorem widened_signed (b : BitVec 1) : ((b.setWidth 32).toInt : ℝ) = ((b.toNat : Nat) : ℝ) := by
  rcases BitVec.eq_zero_or_eq_one b with h | h <;> subst h <;> norm_num [BitVec.toInt, BitVec.toNat_setWidth]

end Cert.Lap

end
-- ==== Proof.RefIsLap.lean ====
/-
  The reference computes the Laplacian of LapSpec.lean: its last stage, read at an entry (b, r, c) one
  operation at a time, is  eye[r, c] - (d[b, r] * A[b, r, c]) * d[b, c],  where the row scale d[b, r] is the
  host's 1 / sqrt of the host's sum of row r from 0 (the zero word IS 0, so the sum starts from nothing),
  broadcast once along the columns and once along the rows, and the identity's entry is the comparison
  bit of the two coordinates read unsigned.
-/
import proofs.«136739_j66305705115958_2_alg».proof.Proof.Gen.ReferenceIdeal.Read
import proofs.«136739_j66305705115958_2_alg».proof.Proof.LapSpec
import Idealize.ShloMosaic.PureOps.Ideal.Laws
import Idealize.ShloMosaic.Lib.ValueIdx

noncomputable section

namespace Cert.ReferenceIdeal.RefValue

open Cert.ReferenceIdeal Cert.ReferenceIdeal.Read Idealize.ShloMosaic Idealize.ShloMosaic.ValueIdx

/-- The host's row scale at (b, r) is `d[b, r]`. -/
theorem scale_apply (x0 : (⟨S16x2048x2048, .f32⟩ : BufTy).Contents (Elt Ideal)) (b : Fin 16) (r : Fin 2048) :
    val_main_v3 (F := Ideal) x0 (ix2 b r) = Cert.Lap.dinv x0 b r := by
  rw [val_main_v3_apply, val_main_v2_apply, val_main_cst_0_apply, val_main_v1_apply, val_main_v0_apply, val_main_cst_apply]
  have hk : ∀ k : Fin 2048, idx_main_v0 (ix2 b r) k = ix3 b r k := fun k =>
    funext fun a => Fin.ext (by match a with | ⟨0, _⟩ => rfl | ⟨1, _⟩ => rfl | ⟨2, _⟩ => rfl)
  simp only [hk, Ideal.hostDivf_def, Ideal.hostUnary_sqrt_def, Ideal.ofBits_def, Ideal.ofBits_zero_f32, zero_add]
  rfl

/-- The host's identity matrix at (r, c). -/
theorem eye_apply (r c : Fin 2048) : val_main_v15 (F := Ideal) (ix2 r c) = Cert.Lap.eye r.val c.val := by
  rw [val_main_v15_apply, val_main_v14_apply, val_main_v13_apply, val_main_v12_apply, val_main_c_apply, val_main_v11_apply,
    val_main_v10_apply]
  show (((IntOp.cmpi .eq (BitVec.ofNat 32 r.val + 0#32) (BitVec.ofNat 32 c.val)).toNat : ℝ) : EReal) = _
  rw [BitVec.add_zero]
  exact Cert.Lap.eye_unsigned r.val c.val (by have := r.isLt; omega) (by have := c.isLt; omega)

/-- The reference's result is the Laplacian of its argument, entry by entry. -/
theorem ref_is_lap (x0 : (⟨S16x2048x2048, .f32⟩ : BufTy).Contents (Elt Ideal)) :
    val_main_v18 (F := Ideal) x0 = Cert.Lap.lap x0 := by
  funext j
  obtain ⟨b, r, c, rfl⟩ : ∃ (b : Fin 16) (r : Fin 2048) (c : Fin 2048), j = ix3 b r c := ⟨j 0, j 1, j 2, eq_ix3 j⟩
  rw [val_main_v18_apply, val_main_v17_apply, val_main_v16_apply, val_main_v9_apply, val_main_v6_apply, val_main_v5_apply,
    val_main_v4_apply, val_main_v8_apply, val_main_v7_apply]
  have e1 : idx_main_v16 (idx_main_v17 (ix3 b r c)) = ix2 r c :=
    funext fun a => Fin.ext (by match a with | ⟨0, _⟩ => rfl | ⟨1, _⟩ => rfl)
  have e2 : idx_main_v4 (idx_main_v5 (ix3 b r c)) = ix2 b r :=
    funext fun a => Fin.ext (by match a with | ⟨0, _⟩ => rfl | ⟨1, _⟩ => rfl)
  have e3 : idx_main_v7 (idx_main_v8 (ix3 b r c)) = ix2 b c :=
    funext fun a => Fin.ext (by match a with | ⟨0, _⟩ => rfl | ⟨1, _⟩ => rfl)
  rw [e1, e2, e3, eye_apply, scale_apply, scale_apply]
  rfl

end Cert.ReferenceIdeal.RefValue

end
-- ==== Proof.Payloads.lean ====
/-
  What the two kernel bodies store, read at an entry, at the extended reals.

  The degree body holds a [16, 128, 2048] slab x (all sixteen matrices, 128 rows each) and stores, at (b, p),
  1 / sqrt of the sum over the lane axis of x[b, p, ·].

  The Laplacian body, at grid point (·, i), holds one matrix's 1024-row slab x, the rows' scales as a
  [1, 1024, 1] column and all the columns' scales as a [1, 1, 2048] row, and stores at (0, p, q)
      eye[1024 i + p, q] - (column[p] * x[p, q]) * row[q]:
  the identity's entry is the comparison of the local row number p, shifted by the slab's first row 1024 i,
  with the column number q — 32-bit words that never wrap at these sizes —, widened and read signed.
-/
import proofs.«136739_j66305705115958_2_alg».proof.Proof.Gen.KernelIdeal.Skeleton
import proofs.«136739_j66305705115958_2_alg».proof.Proof.LapSpec
import Idealize.ShloMosaic.PureOps.Ideal.Laws
import Idealize.ShloMosaic.Lib.Pipeline.Value
import Idealize.ShloMosaic.Lib.ValueIdx

noncomputable section

namespace Cert.KernelIdeal.Pay

open Cert.KernelIdeal Cert.KernelIdeal.Gen Idealize.ShloMosaic Idealize.ShloMosaic.ValueIdx

/-- The degree body's stored value at (b, p). -/
theorem degree_pay (x0 : Vec Ideal S16x128x2048 .f32) (b : Fin 16) (p : Fin 128) :
    k0_pay1 (F := Ideal) x0 (ix2 b p) = Ideal.div Cert.Lap.one (Ideal.sqrt (∑ k : Fin 2048, x0 (ix3 b p k))) := by
  unfold k0_pay1
  show Ideal.div (Ideal.ofBits .f32 0x3F800000#32) (Ideal.sqrt (multiReduction (F := Ideal) .add [2] S16x128 x0 0x00000000#32
    reduces_S16x128x2048_S16x128 (.inl rfl) rfl (ix2 b p))) = _
  refine congrArg (fun s => Ideal.div Cert.Lap.one (Ideal.sqrt s)) ?_
  refine (Ideal.multiReduction_add_single x0 0x00000000#32 reduces_S16x128x2048_S16x128 (.inl rfl) rfl (ix2 b p)).trans ?_
  refine Finset.sum_congr rfl fun k _ => congrArg x0 (funext fun a => Fin.ext ?_)
  match a with
  | ⟨0, _⟩ => rfl
  | ⟨1, _⟩ => rfl
  | ⟨2, _⟩ => rfl

/-- The shifted local row number, as a 32-bit word, is the global row number's word. -/
theorem row_word (i p : Nat) :
    IntOp.addi (BitVec.ofNat 32 p) (Scalar.muli (BitVec.ofNat 32 i) 1024#32) = BitVec.ofNat 32 (i * 1024 + p) := by
  show BitVec.ofNat 32 p + BitVec.ofNat 32 i * BitVec.ofNat 32 1024 = _
  rw [← BitVec.ofNat_mul, ← BitVec.ofNat_add, Nat.add_comm]

/-- The Laplacian body's stored value at (0, p, q), at grid point `i`. -/
theorem lap_pay (i : grid1.Coords) (hi : (i 1).val < 2) (x0 : Vec Ideal S1x1024x2048 .f32) (x1 : Vec Ideal S1x1024x1 .f32)
    (x2 : Vec Ideal S1x1x2048 .f32) (p : Fin 1024) (q : Fin 2048) :
    k1_pay1 (F := Ideal) i x0 x1 x2 (ix3 (0 : Fin 1) p q)
      = Cert.Lap.eye ((i 1).val * 1024 + p.val) q.val
        - (x1 (ix3 (0 : Fin 1) p (0 : Fin 1)) * x0 (ix3 (0 : Fin 1) p q)) * x2 (ix3 (0 : Fin 1) (0 : Fin 1) q) := by
  unfold k1_pay1
  dsimp only
  rw [subf_apply, mulf_apply, mulf_apply, shapeCast_self, shapeCast_self]
  rw [broadcastTo_apply x1 broadcasts_S1x1024x1_S1x1024x2048 (ix3 (0 : Fin 1) p q) (ix3 (0 : Fin 1) p (0 : Fin 1))
      (fun a => by match a with | ⟨0, _⟩ => rfl | ⟨1, _⟩ => rfl | ⟨2, _⟩ => rfl),
    broadcastTo_apply x2 broadcasts_S1x1x2048_S1x1024x2048 (ix3 (0 : Fin 1) p q) (ix3 (0 : Fin 1) (0 : Fin 1) q)
      (fun a => by match a with | ⟨0, _⟩ => rfl | ⟨1, _⟩ => rfl | ⟨2, _⟩ => rfl)]
  refine congrArg (· - _) ?_
  refine (shapeCast_apply _ shapeCasts_S1024x2048_S1x1024x2048 (ix3 (0 : Fin 1) p q) (ix2 p q) ?_).trans ?_
  · rw [Shape.rowMajor_val_two, Shape.rowMajor_val_three]
    show p.val * 2048 + q.val = (0 * 1024 + p.val) * 2048 + q.val
    omega
  show ((((IntOp.cmpi .eq (IntOp.addi (iota .tc S1024x2048 32 [0] iota_S1024x2048_d0_w32 (ix2 p q))
      (Scalar.muli (BitVec.ofNat 32 (i 1).val) 1024#32)) (iota .tc S1024x2048 32 [1] iota_S1024x2048_d1_w32 (ix2 p q))).setWidth 32).toInt : ℝ) : EReal) = _
  rw [iota_single_apply, iota_single_apply, Cert.Lap.widened_signed]
  show (((IntOp.cmpi .eq (IntOp.addi (BitVec.ofNat 32 p.val) (Scalar.muli (BitVec.ofNat 32 (i 1).val) 1024#32)) (BitVec.ofNat 32 q.val)).toNat : ℝ) : EReal) = _
  rw [row_word]
  exact Cert.Lap.eye_unsigned _ _ (by have := p.isLt; omega) (by have := q.isLt; omega)

end Cert.KernelIdeal.Pay

end
-- ==== Proof.RegionValues.lean ====
/-
  What each of the two pallas_calls leaves in its output array, as one function of the arrays it is entered
  with (any entry contents V), at the extended reals.

  The degree call runs over 16 points; point t holds rows 128 t … 128 t + 127 of all sixteen matrices and writes
  back rows 128 t … of the [16, 2048] scale array: every entry (b, r) is written by the point r / 128, so
  the array ends holding d[b, r] of the argument.

  The Laplacian call runs over 16 x 2 points; point t = 2 b + i holds rows 1024 i … of matrix b, the matching
  1024 entries of the column-shaped scales and all 2048 entries of the row-shaped scales of matrix b, and writes back
  rows 1024 i … of matrix b of the result: every entry (b, r, c) is written by the point 2 b + r / 1024, so the
  array ends holding  eye[r, c] - (R[b, r, 0] * A[b, r, c]) * C[b, 0, c]  of the three arrays it read.
-/
import proofs.«136739_j66305705115958_2_alg».proof.Proof.KernelIdealFrameP
import proofs.«136739_j66305705115958_2_alg».proof.Proof.Payloads
import Idealize.ShloMosaic.Lib.Pipeline.Value

noncomputable section

namespace Cert.KernelIdeal.Val

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-! ## The degree call -/

/-- The scale array of an argument: `d[b, r]` at (b, r). -/
abbrev scales (A : S16x2048x2048.Idx → EReal) : S16x2048.Idx → EReal := fun j => Cert.Lap.dinv A (j 0) (j 1)

/-- The printed index maps over the 16 points: the input's block is (0, t, 0), the output's (0, t). -/
theorem idx0 : ∀ t : Fin cfg0.N, win0_0.index t (0 : Fin 3) = 0 ∧ win0_0.index t (1 : Fin 3) = t.val ∧ win0_0.index t (2 : Fin 3) = 0
    ∧ win0_1.index t (0 : Fin 2) = 0 ∧ win0_1.index t (1 : Fin 2) = t.val :=
  (by decide +kernel : ∀ t : Fin grid0.N, _)

/-- A slab that holds rows `128 tv …` of every matrix of `A` has, as its stored value at (b, p), the scale of row `128 tv + p`. -/
theorem degree_block (x0 : Vec Ideal S16x128x2048 .f32) (A : S16x2048x2048.Idx → EReal) (tv : Nat)
    (hx : ∀ (y : S16x128x2048.Idx) (k : S16x2048x2048.Idx), (k 0).val = (y 0).val → (k 1).val = tv * 128 + (y 1).val →
      (k 2).val = (y 2).val → x0 y = A k)
    (y : S16x128.Idx) (i : S16x2048.Idx) (h0 : (i 0).val = (y 0).val) (h1 : (i 1).val = tv * 128 + (y 1).val) :
    k0_pay1 (F := Ideal) x0 y = scales A i := by
  obtain ⟨b, p, rfl⟩ : ∃ (b : Fin 16) (p : Fin 128), y = ix2 b p := ⟨y 0, y 1, eq_ix2 y⟩
  rw [Pay.degree_pay]
  show _ = Ideal.div Cert.Lap.one (Ideal.sqrt (∑ k : Fin 2048, A (ix3 (i 0) (i 1) k)))
  refine congrArg (fun s => Ideal.div Cert.Lap.one (Ideal.sqrt s)) (Finset.sum_congr rfl fun k _ => ?_)
  exact hx _ _ h0 h1 rfl

/-- The input block at point `t` is rows `128 t …` of every matrix of the argument as the call finds it. -/
theorem iblk0_0_apply (c : Dev nD) (t : Fin cfg0.N) (y : S16x128x2048.Idx) (k : S16x2048x2048.Idx)
    (h0 : (k 0).val = (y 0).val) (h1 : (k 1).val = t.val * 128 + (y 1).val) (h2 : (k 2).val = (y 2).val) :
    (iblk0 V c 0 t : Vec Ideal S16x128x2048 .f32) y = (V c main_arg0 : S16x2048x2048.Idx → EReal) k := by
  obtain ⟨e0, e1, e2, -, -⟩ := idx0 t
  unfold iblk0
  rw [View.read_apply]
  show (V c main_arg0 : S16x2048x2048.Idx → EReal) _ = _
  refine congrArg (V c main_arg0 : S16x2048x2048.Idx → EReal) (funext fun a => Fin.ext ?_)
  match a with
  | ⟨0, _⟩ => show win0_0.index t (0 : Fin 3) * 16 + 1 * (y 0).val = (k 0).val; omega
  | ⟨1, _⟩ => show win0_0.index t (1 : Fin 3) * 128 + 1 * (y 1).val = (k 1).val; omega
  | ⟨2, _⟩ => show win0_0.index t (2 : Fin 3) * 2048 + 1 * (y 2).val = (k 2).val; omega

/-- What point `t` writes back is its block of the scale array of the argument. -/
theorem flushed0 (c : Dev nD) (t : Fin cfg0.N) :
    (dat0 V c).flushed 1 t = ((cfg0.win 1).blk t).view.read (Elt Ideal) (scales (V c main_arg0)) := by
  show (cfg0.win 1).cut (grid0.coords t) ((dat0 V c).after 1 t) = _
  rw [after0_1]
  unfold out0_1
  rw [View.canon_unit_zero hz2]
  simp only [View.ld_unit_zero (S := S16x128x2048) hz3]
  obtain ⟨-, -, -, e3, e4⟩ := idx0 t
  funext j
  rw [View.read_apply]
  refine degree_block (iblk0 V c 0 t) (V c main_arg0) t.val (fun y k h0 h1 h2 => iblk0_0_apply V c t y k h0 h1 h2) _ _ ?_ ?_
  · show win0_1.index t (0 : Fin 2) * 16 + 1 * (j 0).val = (j 0).val; omega
  · show win0_1.index t (1 : Fin 2) * 128 + 1 * (j 1).val = t.val * 128 + (j 1).val; omega

/-- Every entry of the scale array is in the block of the point its row falls in. -/
theorem cover0 (i : S16x2048.Idx) : ∃ t : Fin cfg0.N, (cfg0.win 1).flush t = true ∧ i ∈ ((cfg0.win 1).blk t).view.set := by
  have hi0 : (i 0).val < 16 := (i 0).isLt
  have hi1 : (i 1).val < 2048 := (i 1).isLt
  have hN : grid0.N = 16 := N_0
  obtain ⟨t, ht⟩ : ∃ t : Fin cfg0.N, t.val = (i 1).val / 128 := ⟨⟨(i 1).val / 128, by show _ < grid0.N; omega⟩, rfl⟩
  obtain ⟨-, -, -, e3, e4⟩ := idx0 t
  refine ⟨t, flush0_1 t, ?_⟩
  show i ∈ ((View.whole main_v0).slice (win0_1.rect t)).set
  rw [View.set_slice_whole, Rect.mem_set_unit]
  intro a
  match a with
  | ⟨0, _⟩ => show win0_1.index t (0 : Fin 2) * 16 ≤ (i 0).val ∧ (i 0).val < win0_1.index t (0 : Fin 2) * 16 + 16; omega
  | ⟨1, _⟩ => show win0_1.index t (1 : Fin 2) * 128 ≤ (i 1).val ∧ (i 1).val < win0_1.index t (1 : Fin 2) * 128 + 128; omega

/-- The scale array after the degree call. -/
theorem final0 (c : Dev nD) : (dat0 V c).arrAt 1 cfg0.N = scales (V c main_arg0) :=
  (dat0 V c).arrAt_eq_of_cover 1 (scales (V c main_arg0)) (fun t _ => flushed0 V c t) cover0

/-! ## The Laplacian call -/

/-- The result from the three arrays the call reads: the matrix, its row scales as columns, its column scales as rows. -/
abbrev lapOf (A : S16x2048x2048.Idx → EReal) (R : S16x2048x1.Idx → EReal) (C : S16x1x2048.Idx → EReal) : S16x2048x2048.Idx → EReal :=
  fun j => Cert.Lap.eye (j 1).val (j 2).val - (R (ix3 (j 0) (j 1) (0 : Fin 1)) * A j) * C (ix3 (j 0) (0 : Fin 1) (j 2))

/-- The printed index maps over the 32 points: point `t` is matrix `t / 2`, row slab `t % 2`. -/
theorem idx1 : ∀ t : Fin cfg1.N, ((grid1.coords t) (1 : Fin 2)).val = t.val % 2
    ∧ win1_0.index t (0 : Fin 3) = t.val / 2 ∧ win1_0.index t (1 : Fin 3) = t.val % 2 ∧ win1_0.index t (2 : Fin 3) = 0
    ∧ win1_1.index t (0 : Fin 3) = t.val / 2 ∧ win1_1.index t (1 : Fin 3) = t.val % 2 ∧ win1_1.index t (2 : Fin 3) = 0
    ∧ win1_2.index t (0 : Fin 3) = t.val / 2 ∧ win1_2.index t (1 : Fin 3) = 0 ∧ win1_2.index t (2 : Fin 3) = 0
    ∧ win1_3.index t (0 : Fin 3) = t.val / 2 ∧ win1_3.index t (1 : Fin 3) = t.val % 2 ∧ win1_3.index t (2 : Fin 3) = 0 :=
  (by decide +kernel : ∀ t : Fin grid1.N, _)

/-- Three blocks that hold rows `1024 rv …` of matrix `bv`, the matching column-shaped scales and matrix `bv`'s row-shaped scales
    give, as the stored value at (0, p, q), the result's entry (bv, 1024 rv + p, q). -/
theorem lap_block (i : grid1.Coords) (rv : Nat) (hrv : (i 1).val = rv) (hlt : rv < 2)
    (x0 : Vec Ideal S1x1024x2048 .f32) (x1 : Vec Ideal S1x1024x1 .f32) (x2 : Vec Ideal S1x1x2048 .f32)
    (A : S16x2048x2048.Idx → EReal) (R : S16x2048x1.Idx → EReal) (C : S16x1x2048.Idx → EReal) (bv : Nat)
    (hx0 : ∀ (y : S1x1024x2048.Idx) (k : S16x2048x2048.Idx), (k 0).val = bv + (y 0).val → (k 1).val = rv * 1024 + (y 1).val →
      (k 2).val = (y 2).val → x0 y = A k)
    (hx1 : ∀ (y : S1x1024x1.Idx) (k : S16x2048x1.Idx), (k 0).val = bv + (y 0).val → (k 1).val = rv * 1024 + (y 1).val → x1 y = R k)
    (hx2 : ∀ (y : S1x1x2048.Idx) (k : S16x1x2048.Idx), (k 0).val = bv + (y 0).val → (k 2).val = (y 2).val → x2 y = C k)
    (y : S1x1024x2048.Idx) (j : S16x2048x2048.Idx) (h0 : (j 0).val = bv + (y 0).val) (h1 : (j 1).val = rv * 1024 + (y 1).val)
    (h2 : (j 2).val = (y 2).val) :
    k1_pay1 (F := Ideal) i x0 x1 x2 y = lapOf A R C j := by
  obtain ⟨z, p, q, rfl⟩ : ∃ (z : Fin 1) (p : Fin 1024) (q : Fin 2048), y = ix3 z p q := ⟨y 0, y 1, y 2, eq_ix3 y⟩
  obtain rfl : z = 0 := Subsingleton.elim _ _
  rw [Pay.lap_pay i (by omega)]
  show _ = Cert.Lap.eye (j 1).val (j 2).val - (R (ix3 (j 0) (j 1) (0 : Fin 1)) * A j) * C (ix3 (j 0) (0 : Fin 1) (j 2))
  rw [hx0 (ix3 (0 : Fin 1) p q) j h0 h1 h2, hx1 (ix3 (0 : Fin 1) p (0 : Fin 1)) (ix3 (j 0) (j 1) (0 : Fin 1)) h0 h1,
    hx2 (ix3 (0 : Fin 1) (0 : Fin 1) q) (ix3 (j 0) (0 : Fin 1) (j 2)) h0 h2, hrv,
    show rv * 1024 + p.val = (j 1).val from h1.symm, show q.val = (j 2).val from h2.symm]

/-- The matrix block at point `t`: rows `1024 (t % 2) …` of matrix `t / 2`. -/
theorem iblk1_0_apply (c : Dev nD) (t : Fin cfg1.N) (y : S1x1024x2048.Idx) (k : S16x2048x2048.Idx)
    (h0 : (k 0).val = t.val / 2 + (y 0).val) (h1 : (k 1).val = t.val % 2 * 1024 + (y 1).val) (h2 : (k 2).val = (y 2).val) :
    (iblk1 V c 0 t : Vec Ideal S1x1024x2048 .f32) y = (V c main_arg0 : S16x2048x2048.Idx → EReal) k := by
  obtain ⟨-, e0, e1, e2, -⟩ := idx1 t
  unfold iblk1
  rw [View.read_apply]
  show (V c main_arg0 : S16x2048x2048.Idx → EReal) _ = _
  refine congrArg (V c main_arg0 : S16x2048x2048.Idx → EReal) (funext fun a => Fin.ext ?_)
  match a with
  | ⟨0, _⟩ => show win1_0.index t (0 : Fin 3) * 1 + 1 * (y 0).val = (k 0).val; omega
  | ⟨1, _⟩ => show win1_0.index t (1 : Fin 3) * 1024 + 1 * (y 1).val = (k 1).val; omega
  | ⟨2, _⟩ => show win1_0.index t (2 : Fin 3) * 2048 + 1 * (y 2).val = (k 2).val; omega

/-- The column-shaped scales' block at point `t`: entries `1024 (t % 2) …` of matrix `t / 2`. -/
theorem iblk1_1_apply (c : Dev nD) (t : Fin cfg1.N) (y : S1x1024x1.Idx) (k : S16x2048x1.Idx)
    (h0 : (k 0).val = t.val / 2 + (y 0).val) (h1 : (k 1).val = t.val % 2 * 1024 + (y 1).val) :
    (iblk1 V c 1 t : Vec Ideal S1x1024x1 .f32) y = (V c main_v1 : S16x2048x1.Idx → EReal) k := by
  obtain ⟨-, -, -, -, e0, e1, e2, -⟩ := idx1 t
  have hy2 : (y 2).val < 1 := (y 2).isLt
  have hk2 : (k 2).val < 1 := (k 2).isLt
  unfold iblk1
  rw [View.read_apply]
  show (V c main_v1 : S16x2048x1.Idx → EReal) _ = _
  refine congrArg (V c main_v1 : S16x2048x1.Idx → EReal) (funext fun a => Fin.ext ?_)
  match a with
  | ⟨0, _⟩ => show win1_1.index t (0 : Fin 3) * 1 + 1 * (y 0).val = (k 0).val; omega
  | ⟨1, _⟩ => show win1_1.index t (1 : Fin 3) * 1024 + 1 * (y 1).val = (k 1).val; omega
  | ⟨2, _⟩ => show win1_1.index t (2 : Fin 3) * 1 + 1 * (y 2).val = (k 2).val; omega

/-- The row-shaped scales' block at point `t`: all of matrix `t / 2`'s. -/
theorem iblk1_2_apply (c : Dev nD) (t : Fin cfg1.N) (y : S1x1x2048.Idx) (k : S16x1x2048.Idx)
    (h0 : (k 0).val = t.val / 2 + (y 0).val) (h2 : (k 2).val = (y 2).val) :
    (iblk1 V c 2 t : Vec Ideal S1x1x2048 .f32) y = (V c main_v2 : S16x1x2048.Idx → EReal) k := by
  obtain ⟨-, -, -, -, -, -, -, e0, e1, e2, -⟩ := idx1 t
  have hy1 : (y 1).val < 1 := (y 1).isLt
  have hk1 : (k 1).val < 1 := (k 1).isLt
  unfold iblk1
  rw [View.read_apply]
  show (V c main_v2 : S16x1x2048.Idx → EReal) _ = _
  refine congrArg (V c main_v2 : S16x1x2048.Idx → EReal) (funext fun a => Fin.ext ?_)
  match a with
  | ⟨0, _⟩ => show win1_2.index t (0 : Fin 3) * 1 + 1 * (y 0).val = (k 0).val; omega
  | ⟨1, _⟩ => show win1_2.index t (1 : Fin 3) * 1 + 1 * (y 1).val = (k 1).val; omega
  | ⟨2, _⟩ => show win1_2.index t (2 : Fin 3) * 2048 + 1 * (y 2).val = (k 2).val; omega

/-- What point `t` writes back is its block of the result of the three arrays as the call finds them. -/
theorem flushed1 (c : Dev nD) (t : Fin cfg1.N) :
    (dat1 V c).flushed 3 t = ((cfg1.win 3).blk t).view.read (Elt Ideal) (lapOf (V c main_arg0) (V c main_v1) (V c main_v2)) := by
  show (cfg1.win 3).cut (grid1.coords t) ((dat1 V c).after 3 t) = _
  rw [after1_3]
  unfold out1_3
  rw [View.canon_unit_zero hz3]
  simp only [View.ld_unit_zero (S := S1x1024x2048) hz3, View.ld_unit_zero (S := S1x1024x1) hz3, View.ld_unit_zero (S := S1x1x2048) hz3]
  obtain ⟨ec, -, -, -, -, -, -, -, -, -, e0, e1, e2⟩ := idx1 t
  funext j
  rw [View.read_apply]
  refine lap_block (grid1.coords t) (t.val % 2) ec (Nat.mod_lt _ (by decide)) (iblk1 V c 0 t) (iblk1 V c 1 t) (iblk1 V c 2 t)
    (V c main_arg0) (V c main_v1) (V c main_v2) (t.val / 2)
    (fun y k h0 h1 h2 => iblk1_0_apply V c t y k h0 h1 h2) (fun y k h0 h1 => iblk1_1_apply V c t y k h0 h1)
    (fun y k h0 h2 => iblk1_2_apply V c t y k h0 h2) _ _ ?_ ?_ ?_
  · show win1_3.index t (0 : Fin 3) * 1 + 1 * (j 0).val = t.val / 2 + (j 0).val; omega
  · show win1_3.index t (1 : Fin 3) * 1024 + 1 * (j 1).val = t.val % 2 * 1024 + (j 1).val; omega
  · show win1_3.index t (2 : Fin 3) * 2048 + 1 * (j 2).val = (j 2).val; omega

/-- Every entry of the result is in the block of the point its matrix and row fall in. -/
theorem cover1 (i : S16x2048x2048.Idx) : ∃ t : Fin cfg1.N, (cfg1.win 3).flush t = true ∧ i ∈ ((cfg1.win 3).blk t).view.set := by
  have hi0 : (i 0).val < 16 := (i 0).isLt
  have hi1 : (i 1).val < 2048 := (i 1).isLt
  have hi2 : (i 2).val < 2048 := (i 2).isLt
  have hN : grid1.N = 32 := N_1
  obtain ⟨t, ht⟩ : ∃ t : Fin cfg1.N, t.val = (i 0).val * 2 + (i 1).val / 1024 :=
    ⟨⟨(i 0).val * 2 + (i 1).val / 1024, by show _ < grid1.N; omega⟩, rfl⟩
  obtain ⟨-, -, -, -, -, -, -, -, -, -, e0, e1, e2⟩ := idx1 t
  refine ⟨t, flush1_3 t, ?_⟩
  show i ∈ ((View.whole main_v3).slice (win1_3.rect t)).set
  rw [View.set_slice_whole, Rect.mem_set_unit]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 2048 ≤ (i 2).val ∧ (i 2).val < win1_3.index t (2 : Fin 3) * 2048 + 2048; omega

/-- The result array after the Laplacian call. -/
theorem final1 (c : Dev nD) : (dat1 V c).arrAt 3 cfg1.N = lapOf (V c main_arg0) (V c main_v1) (V c main_v2) :=
  (dat1 V c).arrAt_eq_of_cover 3 (lapOf (V c main_arg0) (V c main_v1) (V c main_v2)) (fun t _ => flushed1 V c t) cover1

end Cert.KernelIdeal.Val

end
-- ==== Proof.KernelRun.lean ====
/-
  The idealized kernel's run, with its result NAMED: every weakly fair execution of its @main ends with the
  result array holding the Laplacian of the argument, and the argument as launched.

  @main is the degree call, two reshapes of the scale array it wrote ([16, 2048] viewed as [16, 2048, 1] and as
  [16, 1, 2048]), and the Laplacian call on the argument and the two views. Reading the buffer contents
  boundary by boundary: the argument is never written; the scale array after the first call holds d[b, r] of the
  argument; a reshape keeps row-major order, so the column view at (b, r, 0) and the row view at (b, 0, c) are
  d[b, r] and d[b, c]; the second call then leaves eye[r, c] - (d[b, r] * A[b, r, c]) * d[b, c].
-/
import proofs.«136739_j66305705115958_2_alg».proof.Proof.KernelIdealFrameP
import proofs.«136739_j66305705115958_2_alg».proof.Proof.RegionValues
import Idealize.ShloMosaic.Lib.StableHlo.Run
import Idealize.ShloMosaic.Lib.Pipeline.Value

noncomputable section

namespace Cert.KernelIdeal.RunV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx Idealize.ShloMosaic.StableHlo

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the contents the
    last boundary names for it and the argument as launched: the two calls and the reshapes between them as
    segments, the last thread state read against the final state. -/
theorem run_boundary : θ_run defs (onTc (τ := τ) (main (F := F))) ⟨m, fun _ => 0, ρ⟩ (fun r => ∀ c : Dev nD,
      r.2.mem ((c.tc : Thread nD τ).loc main_v3) = GenP.W3 m ρ c (Proc.devRef .tc main_v3)
      ∧ r.2.mem ((c.tc : Thread nD τ).loc main_arg0) = m ((c.tc : Thread nD τ).loc main_arg0)) :=
  Pipeline.θ_run_regions_kit (pcfgs (F := F)) GenP.adm (GenP.pdats m ρ) () cellOf_inj emb₁ defs₀ GenP.𝒱₀ GenP.L GenP.lv m ρ main (GenP.segs m ρ)
    (fun c Q => by rw [GenP.main_run m ρ c])
    (by simp only [GenP.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (GenP.W0 m ρ c) ∗ GenP.R c)) (Tₙ := GenP.Tₙ m ρ)
    (hch := ⟨fun _ => .rfl, fun _ => .rfl, fun _ => .rfl, fun _ => .rfl⟩)
    (hinit := by
      refine Pipeline.initEach GenP.L GenP.lv fun c => ?_
      rw [show unscopedBufs c (fun b => m ((c : Thread nD τ).loc b)) = StableHlo.held (c : Thread nD τ) (Pipeline.ucRefs τ sig) (GenP.W0 m ρ c)
        from Pipeline.unscopedBufs_held c (GenP.W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = GenP.W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (GenP.W3 m ρ c) s')
      isplitl [Hh] <;> iassumption)
    (hQ := fun s h c =>
      ⟨h c _ (GenP.mem_uc main_v3 (by decide)), (h c _ (GenP.mem_uc main_arg0 (by decide))).trans (GenP.W3_main_arg0 m ρ c)⟩)

end Run

/-! ## The boundaries' contents, at the extended reals -/

variable (m : (ℓ : Loc nD τ sig) → Buf (Elt Ideal) ℓ) (ρ : Dev nD → PrngReg)

/-- The Laplacian call is entered with the argument as launched: nothing before it writes that buffer. -/
theorem entry_arg (c : Dev nD) :
    (GenP.V2 m ρ c main_arg0 : S16x2048x2048.Idx → EReal) = m ((c.tc : Thread nD τ).loc main_arg0) :=
  (((GenP.W3_arr m ρ c 0).trans (((GenP.dat1 (GenP.V2 m ρ) c).arrAt_in 0 rfl _).trans (GenP.A_eq1 (GenP.V2 m ρ) c 0))).symm).trans
    (GenP.W3_main_arg0 m ρ c)

/-- After the degree call the scale array holds the scales of the argument. -/
theorem scales_after (c : Dev nD) :
    (GenP.W1 m ρ c (Proc.devRef .tc main_v0) : S16x2048.Idx → EReal) = Val.scales (m ((c.tc : Thread nD τ).loc main_arg0)) :=
  (GenP.W1_arr m ρ c 1).trans (Val.final0 (GenP.V0 m ρ) c)

/-- The Laplacian call is entered with the column view of the scale array … -/
theorem entry_col (c : Dev nD) :
    (GenP.V2 m ρ c main_v1 : S16x2048x1.Idx → EReal)
      = shapeCast S16x2048x1 (GenP.W1 m ρ c (Proc.devRef .tc main_v0) : S16x2048.Idx → EReal) shapeCasts_S16x2048_S16x2048x1 := by
  show StableHlo.after hostOps1 (GenP.W1 m ρ c) (Proc.devRef .tc main_v1) = _
  after_results
  rfl

/-- … and with its row view. -/
theorem entry_row (c : Dev nD) :
    (GenP.V2 m ρ c main_v2 : S16x1x2048.Idx → EReal)
      = shapeCast S16x1x2048 (GenP.W1 m ρ c (Proc.devRef .tc main_v0) : S16x2048.Idx → EReal) shapeCasts_S16x2048_S16x1x2048 := by
  show StableHlo.after hostOps1 (GenP.W1 m ρ c) (Proc.devRef .tc main_v2) = _
  after_results
  rfl

/-- The result of a matrix, the column view and the row view of its own scales is its Laplacian: a reshape keeps
    row-major order, so the views' entries (b, r, 0) and (b, 0, c) are the scales' (b, r) and (b, c). -/
theorem lapOf_views (A : S16x2048x2048.Idx → EReal) :
    Val.lapOf A (shapeCast S16x2048x1 (Val.scales A) shapeCasts_S16x2048_S16x2048x1)
      (shapeCast S16x1x2048 (Val.scales A) shapeCasts_S16x2048_S16x1x2048) = Cert.Lap.lap A := by
  funext j
  have hj0 : (j 0).val < 16 := (j 0).isLt
  show Cert.Lap.eye (j 1).val (j 2).val
      - (shapeCast S16x2048x1 (Val.scales A) shapeCasts_S16x2048_S16x2048x1 (ix3 (j 0) (j 1) (0 : Fin 1)) * A j)
        * shapeCast S16x1x2048 (Val.scales A) shapeCasts_S16x2048_S16x1x2048 (ix3 (j 0) (0 : Fin 1) (j 2)) = _
  rw [shapeCast_apply (Val.scales A) shapeCasts_S16x2048_S16x2048x1 (ix3 (j 0) (j 1) (0 : Fin 1)) (ix2 (j 0) (j 1)) (by
        rw [Shape.rowMajor_val_two, Shape.rowMajor_val_three]
        show (j 0).val * 2048 + (j 1).val = ((j 0).val * 2048 + (j 1).val) * 1 + 0
        omega),
    shapeCast_apply (Val.scales A) shapeCasts_S16x2048_S16x1x2048 (ix3 (j 0) (0 : Fin 1) (j 2)) (ix2 (j 0) (j 2)) (by
        rw [Shape.rowMajor_val_two, Shape.rowMajor_val_three]
        show (j 0).val * 2048 + (j 2).val = ((j 0).val * 1 + 0) * 2048 + (j 2).val
        omega)]
  rfl

/-- The result array at the last boundary is the Laplacian of the argument. -/
theorem result_eq (c : Dev nD) :
    (GenP.W3 m ρ c (Proc.devRef .tc main_v3) : S16x2048x2048.Idx → EReal) = Cert.Lap.lap (m ((c.tc : Thread nD τ).loc main_arg0)) := by
  refine ((GenP.W3_arr m ρ c 3).trans (Val.final1 (GenP.V2 m ρ) c)).trans ?_
  rw [entry_arg, entry_col, entry_row, scales_after]
  exact lapOf_views _

/-- THE RUN: every weakly fair execution of the idealized kernel's @main terminates, nothing faulting, with the result
    array at the Laplacian of the argument and the argument as launched. -/
theorem run : θ_run defs (onTc (τ := τ) (main (F := Ideal))) ⟨m, fun _ => 0, ρ⟩ (fun r => ∀ c : Dev nD,
      r.2.mem ((c.tc : Thread nD τ).loc main_v3) = Cert.Lap.lap (m ((c.tc : Thread nD τ).loc main_arg0))
      ∧ r.2.mem ((c.tc : Thread nD τ).loc main_arg0) = m ((c.tc : Thread nD τ).loc main_arg0)) :=
  (θ_run defs _ _).mono (fun r h c => ⟨(h c).1.trans (result_eq m ρ c), (h c).2⟩) (run_boundary m ρ)

end Cert.KernelIdeal.RunV

end
-- ==== Proof.lean ====
/-
  The normalized graph Laplacian  L = I - D^(-1/2) A D^(-1/2)  of sixteen 2048 x 2048 matrices, D the diagonal of row sums:
  a kernel of two pallas_calls against a plain jnp reference, equal as extended reals entry by entry.

  The reference computes, at (b, r, c),  eye[r, c] - (d[b, r] * A[b, r, c]) * d[b, c]  with  d[b, r] = 1 / sqrt (sum over k of A[b, r, k])
  (the sum from the zero word, which is 0; the host's quotient and root are the extended reals' own).
  The kernel computes the same d in a first call — row slabs of 128 rows, the lane sum, the root, the quotient, the
  kernel's operations being the same functions at the extended reals — views the scale array once as columns and once as
  rows, and in a second call over (matrix, 1024-row slab) subtracts the twice-scaled slab from the identity's slab, whose
  entry is the comparison of the slab-local row number shifted by the slab's first row with the column number.
  Both sides take the two products in the same order, so no law of the extended reals beyond reading both programs at
  an entry is used, and the precondition (finite inputs) is not needed for the values.

  Proof/LapSpec.lean states the Laplacian as one function of the argument; Proof/RefIsLap.lean reads the reference's
  generated run at an entry; Proof/Payloads.lean reads the two kernel bodies' stored values at an entry;
  Proof/RegionValues.lean gives each call's output array from the arrays it is entered with (each entry written by the
  point its row falls in); Proof/KernelRun.lean follows the buffers through @main and states the kernel's run with its
  result named. The three frames: the two kernel programs' from the frame modules (Proof/KernelFrameP.lean,
  Proof/KernelIdealFrameP.lean), the reference's from its run. The idealization rewrote nothing, so it is preserved trivially.
-/
import proofs.«136739_j66305705115958_2_alg».proof.Defs
import proofs.«136739_j66305705115958_2_alg».proof.Proof.Gen.Kernel
import proofs.«136739_j66305705115958_2_alg».proof.Proof.Gen.KernelIdeal
import proofs.«136739_j66305705115958_2_alg».proof.Proof.Gen.ReferenceIdeal
import proofs.«136739_j66305705115958_2_alg».proof.Proof.Gen.Pre_finite_inputs
import proofs.«136739_j66305705115958_2_alg».proof.Proof.Gen.ReferenceIdeal.Run
import proofs.«136739_j66305705115958_2_alg».proof.Proof.Gen.ReferenceIdeal.Read
import proofs.«136739_j66305705115958_2_alg».proof.Proof.KernelFrameP
import proofs.«136739_j66305705115958_2_alg».proof.Proof.KernelIdealFrameP
import proofs.«136739_j66305705115958_2_alg».proof.Proof.RefIsLap
import proofs.«136739_j66305705115958_2_alg».proof.Proof.KernelRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.GenP.frame m ρ

theorem frame_kernel_ideal : Cert.frame_KernelIdeal := fun m ρ _ => Cert.KernelIdeal.GenP.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the argument both programs end with the Laplacian of that argument in their result array. -/
theorem algebraic : Cert.algebraic_KernelIdeal_ReferenceIdeal := by
  intro m ρ m' ρ' _ hagree
  refine ⟨fun c => Cert.Lap.lap (m ((c.tc : Thread Cert.KernelIdeal.nD Cert.KernelIdeal.τ).loc Cert.KernelIdeal.main_arg0)),
    Cert.KernelIdeal.RunV.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.ref_is_lap, hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
